-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1000 : Shape := ⟨2, ![512, 1000]⟩
abbrev S1000 : Shape := ⟨1, ![1000]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_arg5 : FVec F S512x1000 .f32) (main_arg6 : FVec F S1000 .f32) (main_v13 : IVec S_ 1) (main_v16 : IVec S512x1000 1) : IVec S_ 1 :=
  let main_c_5 : IVec S_ 1 := constantI S_ 1 1#1
  let main_v17 : IVec S_ 1 := (fun x v => Host.reduce IntOp.andi x v reducesTo_S512x1000_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S512x1000 .f32 := Host.absf main_arg5
  let main_cst_8 : FVec F S_ .f32 := constant S_ .f32 0x7F800000#32
  let main_v25 : FVec F S512x1000 .f32 := broadcastInDim S512x1000 ![] bcast_S_S512x1000 main_cst_8
  let main_v26 : IVec S512x1000 1 := cmpf .olt main_v24 main_v25
  let main_c_9 : IVec S_ 1 := constantI S_ 1 1#1
  let main_v27 : IVec S_ 1 := (fun x v => Host.reduce IntOp.andi x v reducesTo_S512x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S16384x512 .f32) (main_arg1 : FVec F S512x1000 .f32) (main_arg2 : FVec F S1000 .f32) (main_arg3 : FVec F S512x1000 .f32) (main_arg4 : FVec F S1000 .f32) (main_arg5 : FVec F S512x1000 .f32) (main_arg6 : FVec F S1000 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1000 .f32 := Host.absf main_arg1
  let main_cst_0 : FVec F S_ .f32 := constant S_ .f32 0x7F800000#32
  let main_v5 : FVec F S512x1000 .f32 := broadcastInDim S512x1000 ![] bcast_S_S512x1000 main_cst_0
  let main_v6 : IVec S512x1000 1 := cmpf .olt main_v4 main_v5
  let main_c_1 : IVec S_ 1 := constantI S_ 1 1#1
  let main_v7 : IVec S_ 1 := (fun x v => Host.reduce IntOp.andi x v reducesTo_S512x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S512x1000 .f32 := Host.absf main_arg3
  let main_cst_4 : FVec F S_ .f32 := constant S_ .f32 0x7F800000#32
  let main_v15 : FVec F S512x1000 .f32 := broadcastInDim S512x1000 ![] bcast_S_S512x1000 main_cst_4
  let main_v16 : IVec S512x1000 1 := cmpf .olt main_v14 main_v15
  fn_part1 (F := F) main_arg4 main_arg5 main_arg6 main_v13 main_v16
-- ==== Kernel.lean ====
abbrev S16384x512 : Shape := ⟨2, ![16384, 512]⟩
abbrev S512x1000 : Shape := ⟨2, ![512, 1000]⟩
abbrev S1000 : Shape := ⟨1, ![1000]⟩
abbrev S1000x512 : Shape := ⟨2, ![1000, 512]⟩
abbrev S1000x1 : Shape := ⟨2, ![1000, 1]⟩
abbrev S1000x16384 : Shape := ⟨2, ![1000, 16384]⟩
abbrev S16384x1000 : Shape := ⟨2, ![16384, 1000]⟩
abbrev S1024x512 : Shape := ⟨2, ![1024, 512]⟩
abbrev S1000x1024 : Shape := ⟨2, ![1000, 1024]⟩
abbrev S1024 : Shape := ⟨1, ![1024]⟩
abbrev S1x1024 : Shape := ⟨2, ![1, 1024]⟩

abbrev nBuf : Space → Nat
  | .hbm => 19
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S512x1000, .f32⟩
  | .hbm, ⟨2, _⟩ => ⟨S1000, .f32⟩
  | .hbm, ⟨3, _⟩ => ⟨S512x1000, .f32⟩
  | .hbm, ⟨4, _⟩ => ⟨S1000, .f32⟩
  | .hbm, ⟨5, _⟩ => ⟨S512x1000, .f32⟩
  | .hbm, ⟨6, _⟩ => ⟨S1000, .f32⟩
  | .hbm, ⟨7, _⟩ => ⟨S1000x512, .f32⟩
  | .hbm, ⟨8, _⟩ => ⟨S1000x1, .f32⟩
  | .hbm, ⟨9, _⟩ => ⟨S1000x512, .f32⟩
  | .hbm, ⟨10, _⟩ => ⟨S1000x1, .f32⟩
  | .hbm, ⟨11, _⟩ => ⟨S1000x512, .f32⟩
  | .hbm, ⟨12, _⟩ => ⟨S1000x1, .f32⟩
  | .hbm, ⟨13, _⟩ => ⟨S1000x16384, .f32⟩
  | .hbm, ⟨14, _⟩ => ⟨S1000x16384, .f32⟩
  | .hbm, ⟨15, _⟩ => ⟨S1000x16384, .f32⟩
  | .hbm, ⟨16, _⟩ => ⟨S16384x1000, .f32⟩
  | .hbm, ⟨17, _⟩ => ⟨S16384x1000, .f32⟩
  | .hbm, ⟨18, _⟩ => ⟨S16384x1000, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S1000x1, .f32⟩
  | .local _ .vmem, ⟨4, _⟩ => ⟨S1000x512, .f32⟩
  | .local _ .vmem, ⟨5, _⟩ => ⟨S1000x1, .f32⟩
  | .local _ .vmem, ⟨6, _⟩ => ⟨S1000x512, .f32⟩
  | .local _ .vmem, ⟨7, _⟩ => ⟨S1000x1, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1000x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6_0 : Ref sig .tc := ⟨.hbm, 13, rfl⟩
abbrev main_call0_v6_1 : Ref sig .tc := ⟨.hbm, 14, rfl⟩
abbrev main_call0_v6_2 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S512x1000_S1000x512_1_0 : S512x1000.Transposes [1, 0] S1000x512
  shapeCasts_S1000_S1000x1 : S1000.ShapeCasts S1000x1
  transposes_S1000x16384_S16384x1000_1_0 : S1000x16384.Transposes [1, 0] S16384x1000
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1024 : S1000x1.Broadcasts S1000x1024
  reduces_S1000x1024_S1024 : S1000x1024.Reduces [0] S1024
  shapeCasts_S1024_S1x1024 : S1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  dot_S1000x512_S1024x512_S1000x1024_1_1_0_0_n_n_wf : DotDims.WF S1000x512 S1024x512 S1000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S1000x1.size a
  hwx0_2 : ∀ i : grid0.Coords, EltTy.bits .f32 = 32 ∨ (Rect.block (s := S1000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S1000x512.size a
  hwx0_3 : ∀ i : grid0.Coords, EltTy.bits .f32 = 32 ∨ (Rect.block (s := S1000x512) S1000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S1000x1.size a
  hwx0_4 : ∀ i : grid0.Coords, EltTy.bits .f32 = 32 ∨ (Rect.block (s := S1000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S1000x512.size a
  hwx0_5 : ∀ i : grid0.Coords, EltTy.bits .f32 = 32 ∨ (Rect.block (s := S1000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000x1.size a ≤ S1000x1.size a
  hwx0_6 : ∀ i : grid0.Coords, EltTy.bits .f32 = 32 ∨ (Rect.block (s := S1000x1) S1000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x1024.size a ≤ S1000x16384.size a
  hwx0_7 : ∀ i : grid0.Coords, EltTy.bits .f32 = 32 ∨ (Rect.block (s := S1000x16384) S1000x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x1024.size a ≤ S1000x16384.size a
  hwx0_8 : ∀ i : grid0.Coords, EltTy.bits .f32 = 32 ∨ (Rect.block (s := S1000x16384) S1000x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1024.size a ≤ S1000x16384.size a
  hwx0_9 : ∀ i : grid0.Coords, EltTy.bits .f32 = 32 ∨ (Rect.block (s := S1000x16384) S1000x1024.size (cc0_transform_9 i) (hinb0_9 i)).WholeWords (EltTy.packing .f32)

variable [Facts₀]

def dot_S1000x512_S1024x512_S1000x1024_1_1_0_0_n_n : DotDims S1000x512 S1024x512 S1000x1024 where
  lhsContracting := [1]
  rhsContracting := [1]
  lhsNonContracting := [0]
  rhsNonContracting := [0]
  lhsBatch := []
  rhsBatch := []
  wf := dot_S1000x512_S1024x512_S1000x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1000x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1000x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1000x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1000x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6_0) S1000x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6_1) S1000x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6_2) S1000x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1000 : Shape := ⟨2, ![512, 1000]⟩
abbrev S1000 : Shape := ⟨1, ![1000]⟩
abbrev S16384x1000 : Shape := ⟨2, ![16384, 1000]⟩
abbrev S1x1000 : Shape := ⟨2, ![1, 1000]⟩
abbrev S_ : Shape := ⟨0, ![]⟩
abbrev S16384 : Shape := ⟨1, ![16384]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1000, .f32⟩
  | .hbm, ⟨2, _⟩ => ⟨S1000, .f32⟩
  | .hbm, ⟨3, _⟩ => ⟨S512x1000, .f32⟩
  | .hbm, ⟨4, _⟩ => ⟨S1000, .f32⟩
  | .hbm, ⟨5, _⟩ => ⟨S512x1000, .f32⟩
  | .hbm, ⟨6, _⟩ => ⟨S1000, .f32⟩
  | .hbm, ⟨7, _⟩ => ⟨S16384x1000, .f32⟩
  | .hbm, ⟨8, _⟩ => ⟨S1x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1000, .f32⟩
  | .hbm, ⟨24, _⟩ => ⟨S16384x1000, .f32⟩
  | .hbm, ⟨25, _⟩ => ⟨S16384x1000, .f32⟩
  | .hbm, ⟨26, _⟩ => ⟨S1x1000, .f32⟩
  | .hbm, ⟨27, _⟩ => ⟨S16384x1000, .f32⟩
  | .hbm, ⟨28, _⟩ => ⟨S16384x1000, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x1000, .f32⟩
  | .hbm, ⟨36, _⟩ => ⟨S16384x1000, .f32⟩
  | .hbm, ⟨37, _⟩ => ⟨S16384x1000, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1000, .f32⟩
  | .hbm, ⟨42, _⟩ => ⟨S16384x1000, .f32⟩
  | .hbm, ⟨43, _⟩ => ⟨S16384x1000, .f32⟩
  | .hbm, ⟨44, _⟩ => ⟨S1x1000, .f32⟩
  | .hbm, ⟨45, _⟩ => ⟨S16384x1000, .f32⟩
  | .hbm, ⟨46, _⟩ => ⟨S16384x1000, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x1000, .f32⟩
  | .hbm, ⟨54, _⟩ => ⟨S16384x1000, .f32⟩
  | .hbm, ⟨55, _⟩ => ⟨S16384x1000, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1000, .f32⟩
  | .hbm, ⟨60, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  dot_S16384x512_S512x1000_S16384x1000_1_0_0_1_n_n_wf : DotDims.WF S16384x512 S512x1000 S16384x1000 [1] [0] [0] [1] [] []

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf

class Facts : Prop extends Facts₀ where

variable [Facts]
-- ==== Proof.Softmax.lean ====
/-
  Row softmax over the extended reals, and the one law this certificate rests on.

  For a row of logits `z : κ → EReal` put `M = max_j z j` (the maximum of the empty row being `-∞`),
  `e j = exp (z j - M)` and `S = ∑_j e j`. The softmax of the row can be written as the quotient `e j / S`
  or as the product `e j * (1 / S)` with the reciprocal taken once per row. On the extended reals the two
  agree whenever `S ≠ 0`: both are `e j * S⁻¹`. They differ only at `S = 0` (where `1 / 0 = +∞` and
  `0 * +∞ = 0`, while `0 / 0` is `-∞`), and `S = 0` needs every `z j - M` to be `-∞`. When every logit of
  the row is a real number, `M` is below `+∞`, no difference `z j - M` is `-∞`, every `e j` is positive,
  and so `S > 0`.

  The logits here are `z i j = ∑_k x i k * w k j + b j` for a feature matrix `x` (16384 × 512), a weight
  matrix `w` (512 × 1000) and a bias `b` (1000); they are real as soon as all entries of `x`, `w`, `b` are.
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-! ## Extended reals that are real numbers -/

/-- `x` is a real number: neither infinity. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type*} (s : Finset ι) (f : ι → EReal) (h : ∀ k ∈ s, IsReal (f k)) :
    IsReal (∑ k ∈ s, f k) := by
  classical
  induction s using Finset.induction_on with
  | empty => rw [Finset.sum_empty]; exact IsReal.zero
  | insert a s ha ih =>
    rw [Finset.sum_insert ha]
    exact (h a (Finset.mem_insert_self a s)).add (ih fun k hk => h k (Finset.mem_insert_of_mem hk))

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-! ## The exponential on the extended reals -/

/-- `exp` is nowhere negative (`exp (-∞) = 0`, `exp (+∞) = +∞`). -/
theorem exp_nonneg (x : EReal) : 0 ≤ Ideal.exp x := by
  induction x using EReal.rec
  · rw [Ideal.exp_bot]
  · rw [Ideal.exp_coe]; exact_mod_cast (Real.exp_pos _).le
  · rw [Ideal.exp_top]; exact le_top

/-- `exp` vanishes only at `-∞`. -/
theorem exp_pos {x : EReal} (hx : x ≠ ⊥) : 0 < Ideal.exp x := by
  induction x using EReal.rec
  · exact absurd rfl hx
  · rw [Ideal.exp_coe]; exact_mod_cast Real.exp_pos _
  · rw [Ideal.exp_top]; exact EReal.zero_lt_top

/-- A difference is `-∞` only if the minuend is `-∞` or the subtrahend `+∞`. -/
theorem sub_ne_bot {x y : EReal} (hx : x ≠ ⊥) (hy : y ≠ ⊤) : x - y ≠ ⊥ := by
  rw [sub_eq_add_neg, Ne, EReal.add_eq_bot_iff, EReal.neg_eq_bot_iff]
  exact fun h => h.elim hx hy

/-! ## Softmax of one row -/

section Row

variable {κ : Type*} [Fintype κ]

/-- The largest logit of the row (`-∞` for the empty row). -/
def rowMax (z : κ → EReal) : EReal := Finset.univ.fold max ⊥ z

/-- `exp (z j - max z)`. -/
def rowExp (z : κ → EReal) (j : κ) : EReal := Ideal.exp (z j - rowMax z)

/-- The row's normaliser `∑_j exp (z j - max z)`. -/
def rowDen (z : κ → EReal) : EReal := ∑ j, rowExp z j

/-- The softmax of a row as a quotient. -/
def rowSoftmax (z : κ → EReal) (j : κ) : EReal := Ideal.div (rowExp z j) (rowDen z)

/-- The softmax of a row as a product with the reciprocal of the normaliser. -/
def rowSoftmaxRecip (z : κ → EReal) (j : κ) : EReal := rowExp z j * Ideal.div 1 (rowDen z)

/-- The maximum of finitely many values below `+∞` is below `+∞`. -/
theorem rowMax_ne_top (z : κ → EReal) (hz : ∀ j, z j ≠ ⊤) : rowMax z ≠ ⊤ := by
  have h : rowMax z < ⊤ := by
    unfold rowMax
    rw [Finset.fold_max_lt]
    exact ⟨bot_lt_top, fun j _ => lt_top_iff_ne_top.mpr (hz j)⟩
  exact h.ne

/-- A row with a real logit and no `+∞` has a positive normaliser. -/
theorem rowDen_pos (z : κ → EReal) (hz : ∀ j, z j ≠ ⊤) (j₀ : κ) (h₀ : z j₀ ≠ ⊥) : 0 < rowDen z := by
  have hle : rowExp z j₀ ≤ rowDen z :=
    Finset.single_le_sum (f := rowExp z) (fun j _ => exp_nonneg _) (Finset.mem_univ j₀)
  exact lt_of_lt_of_le (exp_pos (sub_ne_bot h₀ (rowMax_ne_top z hz))) hle

/-- Off a vanishing normaliser the two forms are one: both are `e j * S⁻¹`. -/
theorem rowSoftmaxRecip_eq_of_ne_zero (z : κ → EReal) (h : rowDen z ≠ 0) (j : κ) :
    rowSoftmaxRecip z j = rowSoftmax z j := by
  unfold rowSoftmaxRecip rowSoftmax Ideal.div
  simp only [if_neg h, one_mul]

/-- THE LAW: on a row of real logits, multiplying by the reciprocal of the normaliser is dividing by it. -/
theorem rowSoftmaxRecip_eq (z : κ → EReal) (hz : ∀ j, IsReal (z j)) (j : κ) :
    rowSoftmaxRecip z j = rowSoftmax z j :=
  rowSoftmaxRecip_eq_of_ne_zero z (rowDen_pos z (fun j => (hz j).ne_top) j (hz j).ne_bot).ne' j

/-- Both forms depend on the row only through its values. -/
theorem rowSoftmaxRecip_congr {z z' : κ → EReal} (h : ∀ j, z j = z' j) (j : κ) :
    rowSoftmaxRecip z j = rowSoftmaxRecip z' j := by
  rw [show z = z' from funext h]

end Row

/-! ## The logits and the whole array -/

/-- `-∞`'s pattern denotes the bottom of the extended reals. -/
theorem ofBits_neg_inf : Ideal.ofBits .f32 0xFF800000#32 = ⊥ := by simp [Ideal.ofBits, Ideal.ieee]

/-- The logit of sample `i` for class `j`: `∑_k x i k * w k j + b j`. -/
def logit (x : (⟨2, ![16384, 512]⟩ : Shape).Idx → EReal) (w : (⟨2, ![512, 1000]⟩ : Shape).Idx → EReal)
    (b : (⟨1, ![1000]⟩ : Shape).Idx → EReal) (i : Fin 16384) (j : Fin 1000) : EReal :=
  (∑ k : Fin 512, x (ix2 i k) * w (ix2 k j)) + b (ix1 j)

/-- Real features, weights and bias give real logits. -/
theorem logit_isReal (x : (⟨2, ![16384, 512]⟩ : Shape).Idx → EReal) (w : (⟨2, ![512, 1000]⟩ : Shape).Idx → EReal)
    (b : (⟨1, ![1000]⟩ : Shape).Idx → EReal) (hx : ∀ p, IsReal (x p)) (hw : ∀ p, IsReal (w p)) (hb : ∀ p, IsReal (b p))
    (i : Fin 16384) (j : Fin 1000) : IsReal (logit x w b i j) :=
  (IsReal.sum _ _ fun k _ => (hx _).mul (hw _)).add (hb _)

/-- The classifier head: row `i` of the result is the softmax of sample `i`'s logits. -/
def softmax (x : (⟨2, ![16384, 512]⟩ : Shape).Idx → EReal) (w : (⟨2, ![512, 1000]⟩ : Shape).Idx → EReal)
    (b : (⟨1, ![1000]⟩ : Shape).Idx → EReal) : (⟨2, ![16384, 1000]⟩ : Shape).Idx → EReal :=
  fun p => rowSoftmax (logit x w b (p 0)) (p 1)

end Cert.Softmax

end
-- ==== Proof.FiniteArgs.lean ====
import proofs.«130654_g8564164788422_cont_9to1_m_151_19_alg».proof.Defs
import proofs.«130654_g8564164788422_cont_9to1_m_151_19_alg».proof.Proof.Gen.Pre_finite_inputs
import Idealize.ShloMosaic.PureOps.Ideal
import Idealize.ShloMosaic.Lib.ReduceAll
import Idealize.ShloMosaic.Lib.ValueIdx
import Idealize.ShloMosaic.Lib.IdealHost

/-!
# From the finiteness precondition to real entries

The precondition is, for each of the seven argument arrays `a`, the predicate "all entries satisfy
`|x| < +∞`", and the conjunction of the seven. Over the extended reals `|x| = max x (-x)`, and
`max x (-x) < ⊤` excludes exactly `x = ⊤` and `x = ⊥`: what is left is a real number.
-/

namespace Cert.FiniteArgs

open Idealize.ShloMosaic

/-- An extended real whose absolute value `max x (-x)` is strictly below `⊤` is a real number:
    at `⊤` the maximum is `⊤`, at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The bit pattern `0x7F800000` of the 32-bit format denotes `+∞`. -/
theorem ofBits_inf : Ideal.ofBits .f32 0x7F800000#32 = (⊤ : EReal) := by
  simp [Ideal.ofBits, Ideal.ieee]

/-- One element: the strict comparison of `|x|` against `+∞` coming out true says `x` is real. -/
theorem real_of_cmp (x : Ideal .f32)
    (h : FloatOps.cmpf (F := Ideal) .olt (FloatOps.hostAbsf x) (Ideal.ofBits .f32 0x7F800000#32) = 1#1) :
    ∃ r : ℝ, x = (r : EReal) := by
  refine real_of_abs_lt_top x ?_
  rw [ofBits_inf] at h
  have h' : Ideal.cmp .olt (max x (-x)) ⊤ = 1#1 := h
  unfold Ideal.cmp at h'
  by_contra hn
  simp [hn] at h'

/-- The scalar shape has one index. -/
instance : Subsingleton Cert.Pre_finite_inputs.S_.Idx := ⟨fun a b => funext fun d => d.elim0⟩

/-- One array: if the conjunction over all entries of `|x| < +∞` is true, every entry is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (init : IVec Cert.Pre_finite_inputs.S_ 1)
    (h : Host.reduce IntOp.andi
          (cmpf .olt (Host.absf a) (broadcastInDim s ![] hb (constant Cert.Pre_finite_inputs.S_ .f32 0x7F800000#32)))
          init hr hu ValueIdx.ix0 = 1#1) :
    ∀ i, ∃ r : ℝ, a i = (r : EReal) := by
  intro i
  have e := Host.reduce_andi_all _ init hr hu ValueIdx.ix0 h i
  rw [ValueIdx.cmpf_apply, ValueIdx.broadcastInDim_scalar_apply] at e
  exact real_of_cmp (a i) e

open Idealize.ShloMosaic in
theorem real_of_pre
    (a0 : FVec Ideal Cert.Pre_finite_inputs.S16384x512 .f32)
    (a1 : FVec Ideal Cert.Pre_finite_inputs.S512x1000 .f32) (a2 : FVec Ideal Cert.Pre_finite_inputs.S1000 .f32)
    (a3 : FVec Ideal Cert.Pre_finite_inputs.S512x1000 .f32) (a4 : FVec Ideal Cert.Pre_finite_inputs.S1000 .f32)
    (a5 : FVec Ideal Cert.Pre_finite_inputs.S512x1000 .f32) (a6 : FVec Ideal Cert.Pre_finite_inputs.S1000 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨real_of_all _ _ _ a0 _ e0, real_of_all _ _ _ a1 _ e1, real_of_all _ _ _ a2 _ e2,
    real_of_all _ _ _ a3 _ e3, real_of_all _ _ _ a4 _ e4, real_of_all _ _ _ a5 _ e5, real_of_all _ _ _ a6 _ e6⟩

end Cert.FiniteArgs
-- ==== Proof.RefValue.lean ====
/-
  The reference program computes the softmax of the specification.

  The reference has three heads. Each forms the logits `z i j = ∑_k x i k * w k j + b j`, takes the row maximum
  `M i = max_j z i j` (a fold of `max` from `-∞`, followed by one more `max` with `-∞`, which changes nothing),
  the exponentials `e i j = exp (z i j - M i)`, the row sums `S i = 0 + ∑_j e i j`, and the quotient `e i j / S i`.
  Read at an index `(i, j)`, stage by stage, this is the specification's `rowSoftmax (logit x w b i) j`:
  the logit stage is `logit`, the maximum stage is `rowMax`, the exponential stage is `rowExp`, the sum stage is
  `rowDen`, and the last stage is their quotient.

  The second and third head are the first head's operations applied to other weights and another bias, so each
  of their stages is, by definition, the first head's stage at those arguments.
-/
import proofs.«130654_g8564164788422_cont_9to1_m_151_19_alg».proof.Proof.Gen.ReferenceIdeal.Read
import proofs.«130654_g8564164788422_cont_9to1_m_151_19_alg».proof.Proof.Softmax
import Idealize.ShloMosaic.PureOps.Ideal
import Idealize.ShloMosaic.PureOps.Ideal.Laws
import Idealize.ShloMosaic.PureOps.Reduce
import Idealize.ShloMosaic.Lib.ValueIdx

noncomputable section

namespace Cert.RefValue

open Idealize.ShloMosaic Idealize.ShloMosaic.ValueIdx Cert.ReferenceIdeal Cert.ReferenceIdeal.Read
open Cert.ReferenceIdeal.Facts₀

/-! ## Folding `max` -/

/-- The ideal instance's `maximumf` is `max`, so a fold of one is a fold of the other. -/
theorem fold_maximumf {κ : Type*} (s : Finset κ) (a : EReal) (f : κ → EReal) :
    s.fold (FloatOps.maximumf (F := Ideal) (φ := .f32)) a f = s.fold max a f := rfl

/-! ## Index equations

Each composed index function of the generated reading, at `(i, j)`, is the index the specification names. -/

theorem lidx_eq (i : Fin 16384) (j : Fin 1000) (k : Fin 512) : lidx_main_v0 (ix2 i j) k = ix2 i k :=
  funext fun a => Fin.ext (by match a with | ⟨0, _⟩ => rfl | ⟨1, _⟩ => rfl)

theorem ridx_eq (i : Fin 16384) (j : Fin 1000) (k : Fin 512) : ridx_main_v0 (ix2 i j) k = ix2 k j :=
  funext fun a => Fin.ext (by match a with | ⟨0, _⟩ => rfl | ⟨1, _⟩ => rfl)

theorem bias_idx_eq (i : Fin 16384) (j : Fin 1000) : idx_main_v1 (idx_main_v2 (ix2 i j)) = ix1 j :=
  funext fun a => Fin.ext (by match a with | ⟨0, _⟩ => rfl)

theorem row_idx_max_eq (i : Fin 16384) (j : Fin 1000) : idx_main_v7 (idx_main_v8 (ix2 i j)) = ix1 i :=
  funext fun a => Fin.ext (by match a with | ⟨0, _⟩ => rfl)

theorem row_idx_sum_eq (i : Fin 16384) (j : Fin 1000) : idx_main_v12 (idx_main_v13 (ix2 i j)) = ix1 i :=
  funext fun a => Fin.ext (by match a with | ⟨0, _⟩ => rfl)

theorem sum_idx_eq (i : Fin 16384) (k : Fin 1000) : idx_main_v11 (ix1 i) k = ix2 i k :=
  funext fun a => Fin.ext (by match a with | ⟨0, _⟩ => rfl | ⟨1, _⟩ => rfl)

/-- Dropping axis 1 of a `16384 × 1000` array leaves the `16384` rows. -/
theorem reduces_rows : S16384x1000.Reduces [1] S16384 := by decide

/-- Row `i` with the column `k` inserted is `(i, k)`. -/
theorem lift_eq (i : Fin 16384) (k : Fin 1000) : reduces_rows.lift (ix1 i) k = ix2 i k :=
  funext fun a => Fin.ext (by match a with | ⟨0, _⟩ => rfl | ⟨1, _⟩ => rfl)

/-! ## The first head, stage by stage -/

section Head0

variable (x0 : (⟨S16384x512, .f32⟩ : BufTy).Contents (Elt Ideal)) (x1 : (⟨S512x1000, .f32⟩ : BufTy).Contents (Elt Ideal))
  (x2 : (⟨S1000, .f32⟩ : BufTy).Contents (Elt Ideal))

/-- The logit stage: the product's element plus the bias's. -/
theorem logit_stage (i : Fin 16384) (j : Fin 1000) :
    val_main_v3 (F := Ideal) x0 x1 x2 (ix2 i j) = Cert.Softmax.logit x0 x1 x2 i j := by
  rw [val_main_v3_apply, val_main_v0_apply, val_main_v2_apply, val_main_v1_apply]
  simp only [lidx_eq, ridx_eq, bias_idx_eq, Ideal.addf_def]
  rfl

/-- The maximum stage: the fold of `max` from `-∞` along row `i`. -/
theorem max_stage (i : Fin 16384) :
    val_main_v4 (F := Ideal) x0 x1 x2 (ix1 i) = Cert.Softmax.rowMax (Cert.Softmax.logit x0 x1 x2 i) := by
  unfold val_main_v4
  rw [Host.reduce_eq_fold_single _ _ _ reducesTo_S16384x1000_S16384_d1 reduces_rows h_S_ (ix1 i), fold_maximumf,
    val_main_cst_apply, Ideal.ofBits_def, Cert.Softmax.ofBits_neg_inf]
  unfold Cert.Softmax.rowMax
  refine Finset.fold_congr fun k _ => ?_
  exact (congrArg (val_main_v3 (F := Ideal) x0 x1 x2) (lift_eq i k)).trans (logit_stage x0 x1 x2 i k)

/-- The maximum, once more compared with `-∞` and spread along the row, is still the row's maximum. -/
theorem max_bcast_stage (i : Fin 16384) (j : Fin 1000) :
    val_main_v8 (F := Ideal) x0 x1 x2 (ix2 i j) = Cert.Softmax.rowMax (Cert.Softmax.logit x0 x1 x2 i) := by
  rw [val_main_v8_apply, val_main_v7_apply, row_idx_max_eq, val_main_v6_apply, val_main_v5_apply, val_main_cst_0_apply,
    max_stage, Ideal.maximumf_def, Ideal.ofBits_def, Cert.Softmax.ofBits_neg_inf]
  exact max_bot_left _

/-- The exponential stage. -/
theorem exp_stage (i : Fin 16384) (j : Fin 1000) :
    val_main_v10 (F := Ideal) x0 x1 x2 (ix2 i j) = Cert.Softmax.rowExp (Cert.Softmax.logit x0 x1 x2 i) j := by
  rw [val_main_v10_apply, val_main_v9_apply, logit_stage, max_bcast_stage, Ideal.hostUnary_exp_def, Ideal.subf_def]
  rfl

/-- The sum stage: zero plus the row's exponentials. -/
theorem den_stage (i : Fin 16384) :
    val_main_v11 (F := Ideal) x0 x1 x2 (ix1 i) = Cert.Softmax.rowDen (Cert.Softmax.logit x0 x1 x2 i) := by
  rw [val_main_v11_apply, val_main_cst_1_apply, Ideal.ofBits_def, Ideal.ofBits_zero_f32, zero_add]
  unfold Cert.Softmax.rowDen
  refine Finset.sum_congr rfl fun k _ => ?_
  rw [sum_idx_eq, exp_stage]

/-- The quotient stage. -/
theorem quot_stage (i : Fin 16384) (j : Fin 1000) :
    val_main_v14 (F := Ideal) x0 x1 x2 (ix2 i j) = Cert.Softmax.rowSoftmax (Cert.Softmax.logit x0 x1 x2 i) j := by
  rw [val_main_v14_apply, val_main_v13_apply, val_main_v12_apply, row_idx_sum_eq, exp_stage, den_stage, Ideal.hostDivf_def]
  rfl

end Head0

open Idealize.ShloMosaic Cert.ReferenceIdeal Cert.ReferenceIdeal.Read in
/-- The first head is the specification's softmax of the first weights and bias. -/
theorem head0 (x0 : (⟨S16384x512, .f32⟩ : BufTy).Contents (Elt Ideal)) (x1 : (⟨S512x1000, .f32⟩ : BufTy).Contents (Elt Ideal))
    (x2 : (⟨S1000, .f32⟩ : BufTy).Contents (Elt Ideal)) :
    val_main_v14 (F := Ideal) x0 x1 x2 = Cert.Softmax.softmax x0 x1 x2 := by
  funext p
  obtain ⟨i, j, rfl⟩ : ∃ (i : Fin 16384) (j : Fin 1000), p = ix2 i j := ⟨p 0, p 1, eq_ix2 p⟩
  rw [quot_stage]
  rfl

/-! ## The second and third head

Each stage of the second head is the same operation as the first head's, applied to the second weights and bias;
likewise the third. So their last stages are, by definition, the first head's last stage at those arguments. -/

theorem second_eq_first (x0 : (⟨S16384x512, .f32⟩ : BufTy).Contents (Elt Ideal)) (x3 : (⟨S512x1000, .f32⟩ : BufTy).Contents (Elt Ideal))
    (x4 : (⟨S1000, .f32⟩ : BufTy).Contents (Elt Ideal)) :
    val_main_v29 (F := Ideal) x0 x3 x4 = val_main_v14 (F := Ideal) x0 x3 x4 := rfl

theorem third_eq_first (x0 : (⟨S16384x512, .f32⟩ : BufTy).Contents (Elt Ideal)) (x5 : (⟨S512x1000, .f32⟩ : BufTy).Contents (Elt Ideal))
    (x6 : (⟨S1000, .f32⟩ : BufTy).Contents (Elt Ideal)) :
    val_main_v44 (F := Ideal) x0 x5 x6 = val_main_v14 (F := Ideal) x0 x5 x6 := rfl

open Idealize.ShloMosaic Cert.ReferenceIdeal Cert.ReferenceIdeal.Read in
/-- The second head is the specification's softmax of the second weights and bias. -/
theorem head1 (x0 : (⟨S16384x512, .f32⟩ : BufTy).Contents (Elt Ideal)) (x3 : (⟨S512x1000, .f32⟩ : BufTy).Contents (Elt Ideal))
    (x4 : (⟨S1000, .f32⟩ : BufTy).Contents (Elt Ideal)) :
    val_main_v29 (F := Ideal) x0 x3 x4 = Cert.Softmax.softmax x0 x3 x4 :=
  (second_eq_first x0 x3 x4).trans (head0 x0 x3 x4)

open Idealize.ShloMosaic Cert.ReferenceIdeal Cert.ReferenceIdeal.Read in
/-- The third head is the specification's softmax of the third weights and bias. -/
theorem head2 (x0 : (⟨S16384x512, .f32⟩ : BufTy).Contents (Elt Ideal)) (x5 : (⟨S512x1000, .f32⟩ : BufTy).Contents (Elt Ideal))
    (x6 : (⟨S1000, .f32⟩ : BufTy).Contents (Elt Ideal)) :
    val_main_v44 (F := Ideal) x0 x5 x6 = Cert.Softmax.softmax x0 x5 x6 :=
  (third_eq_first x0 x5 x6).trans (head0 x0 x5 x6)

end Cert.RefValue

end
-- ==== Proof.Layout.lean ====
/-
  Layout and reduction operations of a [1000, 1024] block read at an index (j, r): j a class, r a sample of the block.

  A column [a, 1] broadcast along the second axis reads its entry j; a vector [a] reshaped to a column [a, 1] reads its
  entry j; the maximum and the sum over the first axis of a [1000, 1024] array read, at sample r, the maximum (from -∞)
  and the sum over the classes j of the entries (j, r); and the product of a [1000, 512] matrix with the transpose of a
  [1024, 512] matrix, accumulated into zero, reads at (j, r) the sum over k of the products of the entries (j, k), (r, k).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` reshaped to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction over the first axis reads: class `j` put in front of sample `r`. -/
theorem lift_eq (h : (⟨2, ![1000, 1024]⟩ : Shape).Reduces [0] ⟨1, ![1024]⟩) (r : Fin 1024) (j : Fin 1000) :
    h.lift (ix1 r) j = ix2 j r :=
  funext fun a => Fin.ext (by match a with | ⟨0, _⟩ => rfl | ⟨1, _⟩ => rfl)

/-- The sum over the classes: at sample `r` it is `∑_j` of the entries `(j, r)`. -/
theorem colSum_apply (src : FVec Ideal ⟨2, ![1000, 1024]⟩ .f32)
    (h : (⟨2, ![1000, 1024]⟩ : Shape).Reduces [0] ⟨1, ![1024]⟩) (hφ : FKind.Formats .f32)
    (hacc : (0x00000000#32 : BitVec 32) = FKind.add.neutral .f32 hφ) (r : Fin 1024) :
    multiReduction .add [0] ⟨1, ![1024]⟩ src 0x00000000#32 h hφ hacc (ix1 r) = ∑ j : Fin 1000, src (ix2 j r) := by
  refine (Ideal.multiReduction_add_single src 0x00000000#32 h hφ hacc (ix1 r)).trans ?_
  exact Finset.sum_congr rfl fun j _ => congrArg src (lift_eq h r j)

/-- The maximum over the classes, from `-∞`: at sample `r` it is the maximum of the entries `(j, r)`. -/
theorem colMax_apply (src : FVec Ideal ⟨2, ![1000, 1024]⟩ .f32)
    (h : (⟨2, ![1000, 1024]⟩ : Shape).Reduces [0] ⟨1, ![1024]⟩) (hφ : FKind.Formats .f32)
    (hacc : (0xFF800000#32 : BitVec 32) = FKind.maximumf.neutral .f32 hφ) (r : Fin 1024) :
    multiReduction .maximumf [0] ⟨1, ![1024]⟩ src 0xFF800000#32 h hφ hacc (ix1 r)
      = (Finset.univ : Finset (Fin 1000)).fold max (Ideal.ofBits .f32 0xFF800000#32) (fun j => src (ix2 j r)) := by
  refine (Ideal.multiReduction_maximumf_single src 0xFF800000#32 h hφ hacc (ix1 r)).trans ?_
  exact congrArg (Finset.fold max _ · Finset.univ) (funext fun j => congrArg src (lift_eq h r j))

end Cert.Layout

end
-- ==== Proof.Block.lean ====
/-
  What one grid point computes for one classifier head, read at an index.

  A point holds 1024 samples `x` (a [1024, 512] block of the features), the head's transposed weights `wt` ([1000, 512])
  and its bias as a column `bc` ([1000, 1]). It forms the block's logits in the transposed layout,
  `z (j, r) = ∑_k wt (j, k) * x (r, k) + bc (j, 0)` (the matrix product accumulated into zero; the roundings of the
  operands to bf16 are the identity on the extended reals), and then, sample by sample, the softmax over the classes
  `j` in its reciprocal form: `exp (z (j, r) - max_j' z (j', r))` times `1 / ∑_j' exp (z (j', r) - max …)`.
  The body stores this value once per head; the three stores package the same term differently, which is `rfl`.
-/
import proofs.«130654_g8564164788422_cont_9to1_m_151_19_alg».proof.Proof.Gen.KernelIdeal.Skeleton
import proofs.«130654_g8564164788422_cont_9to1_m_151_19_alg».proof.Proof.Softmax
import proofs.«130654_g8564164788422_cont_9to1_m_151_19_alg».proof.Proof.Layout
import Idealize.ShloMosaic.Lib.IdealHost

noncomputable section

namespace Cert.Block

open Idealize.ShloMosaic Idealize.ShloMosaic.ValueIdx Cert.KernelIdeal Cert.KernelIdeal.Gen Cert.Softmax Cert.Layout

/-! ## The head's value in one vocabulary -/

/-- The block's logits, classes by samples. -/
def logitsT (xb : FVec Ideal S1024x512 .bf16) (wt : Vec Ideal S1000x512 .f32) (bc : Vec Ideal S1000x1 .f32) :
    FVec Ideal S1000x1024 .f32 :=
  addf (matmul dot_S1000x512_S1024x512_S1000x1024_1_1_0_0_n_n none
      (truncf .bf16 (shapeCast S1000x512 wt shapeCasts_S1000x512_S1000x512) bitsLt_bf16_f32) xb
      (constant S1000x1024 .f32 0x00000000#32))
    (broadcastTo S1000x1024 (shapeCast S1000x1 bc shapeCasts_S1000x1_S1000x1) broadcasts_S1000x1_S1000x1024)

/-- Each sample's largest logit, repeated down the classes. -/
def maxT (z : FVec Ideal S1000x1024 .f32) : FVec Ideal S1000x1024 .f32 :=
  broadcastTo S1000x1024 (shapeCast S1x1024
    (multiReduction .maximumf [0] S1024 z 0xFF800000#32 reduces_S1000x1024_S1024 (.inl rfl) rfl)
    shapeCasts_S1024_S1x1024) broadcasts_S1x1024_S1000x1024

/-- `exp (z - max)`. -/
def expT (z : FVec Ideal S1000x1024 .f32) : FVec Ideal S1000x1024 .f32 := exp (subf z (maxT z))

/-- The reciprocal of each sample's normaliser, repeated down the classes. -/
def recipT (e : FVec Ideal S1000x1024 .f32) : FVec Ideal S1000x1024 .f32 :=
  broadcastTo S1000x1024 (divf (broadcast S1x1024 (Scalar.ofBits .f32 0x3F800000#32))
    (shapeCast S1x1024 (multiReduction .add [0] S1024 e 0x00000000#32 reduces_S1000x1024_S1024 (.inl rfl) rfl)
      shapeCasts_S1024_S1x1024)) broadcasts_S1x1024_S1000x1024

/-- The softmax over the classes, sample by sample, in reciprocal form. -/
def softT (z : FVec Ideal S1000x1024 .f32) : FVec Ideal S1000x1024 .f32 := mulf (expT z) (recipT (expT z))

/-- The three stores of the body hold this value of their head's operands. -/
theorem pay2_eq (xb : FVec Ideal S1024x512 .bf16) (wt : Vec Ideal S1000x512 .f32) (bc : Vec Ideal S1000x1 .f32) :
    k0_pay2 (F := Ideal) xb wt bc = softT (logitsT xb wt bc) := rfl

theorem pay4_eq (x : Vec Ideal S1024x512 .f32) (wt : Vec Ideal S1000x512 .f32) (bc : Vec Ideal S1000x1 .f32) :
    k0_pay4 (F := Ideal) x wt bc = softT (logitsT (k0_pay3 x) wt bc) := rfl

theorem pay1_eq (x : Vec Ideal S1024x512 .f32) (wt : Vec Ideal S1000x512 .f32) (bc : Vec Ideal S1000x1 .f32) :
    k0_pay1 (F := Ideal) (k0_pay5 x wt bc) (k0_pay6 x wt bc) k0_pay7 = softT (logitsT (k0_pay3 x) wt bc) := rfl

/-- Rounding the samples to bf16 changes no value. -/
theorem pay3_apply (x : Vec Ideal S1024x512 .f32) (p : S1024x512.Idx) : k0_pay3 (F := Ideal) x p = x p := rfl

/-! ## The softmax of the block at an index -/

/-- A row of 1024 values repeated down the classes reads, at `(j, r)`, the row's entry `r`. -/
theorem rowBcast_apply (u : FVec Ideal S1024 .f32) (j : Fin 1000) (r : Fin 1024) :
    broadcastTo S1000x1024 (shapeCast S1x1024 u shapeCasts_S1024_S1x1024) broadcasts_S1x1024_S1000x1024 (ix2 j r)
      = u (ix1 r) :=
  (broadcastTo_1b_ab_apply _ _ j r).trans (shapeCast_a_1a_apply u _ 0 r)

theorem maxT_apply (z : FVec Ideal S1000x1024 .f32) (j : Fin 1000) (r : Fin 1024) :
    maxT z (ix2 j r) = rowMax (fun jj : Fin 1000 => z (ix2 jj r)) := by
  refine (rowBcast_apply _ j r).trans ?_
  refine (colMax_apply z reduces_S1000x1024_S1024 (.inl rfl) rfl r).trans ?_
  unfold rowMax
  rw [ofBits_neg_inf]

theorem expT_apply (z : FVec Ideal S1000x1024 .f32) (j : Fin 1000) (r : Fin 1024) :
    expT z (ix2 j r) = rowExp (fun jj : Fin 1000 => z (ix2 jj r)) j :=
  congrArg (fun M => Ideal.exp (z (ix2 j r) - M)) (maxT_apply z j r)

theorem recipT_apply (z : FVec Ideal S1000x1024 .f32) (j : Fin 1000) (r : Fin 1024) :
    recipT (expT z) (ix2 j r) = Ideal.div 1 (rowDen (fun jj : Fin 1000 => z (ix2 jj r))) := by
  refine (broadcastTo_1b_ab_apply _ _ j r).trans ?_
  have h1 : (Scalar.ofBits (F := Ideal) .f32 0x3F800000#32 : EReal) = 1 := Ideal.ofBits_one_f32
  have h2 : shapeCast S1x1024 (multiReduction .add [0] S1024 (expT z) 0x00000000#32 reduces_S1000x1024_S1024 (.inl rfl) rfl)
      shapeCasts_S1024_S1x1024 (ix2 (0 : Fin 1) r) = rowDen (fun jj : Fin 1000 => z (ix2 jj r)) := by
    refine (shapeCast_a_1a_apply _ _ 0 r).trans ?_
    refine (colSum_apply (expT z) reduces_S1000x1024_S1024 (.inl rfl) rfl r).trans ?_
    exact Finset.sum_congr rfl fun jj _ => expT_apply z jj r
  show Ideal.div (Scalar.ofBits (F := Ideal) .f32 0x3F800000#32) _ = _
  rw [h1, h2]

/-- THE BLOCK'S VALUE: at class `j` and sample `r`, the reciprocal-form softmax of the sample's column of logits. -/
theorem softT_apply (z : FVec Ideal S1000x1024 .f32) (j : Fin 1000) (r : Fin 1024) :
    softT z (ix2 j r) = rowSoftmaxRecip (fun jj : Fin 1000 => z (ix2 jj r)) j := by
  show expT z (ix2 j r) * recipT (expT z) (ix2 j r) = _
  rw [expT_apply, recipT_apply]
  rfl

/-! ## The block's logits at an index -/

/-- The product's dimension numbers: both operands contract their second axis. -/
abbrev dotT := dot_S1000x512_S1024x512_S1000x1024_1_1_0_0_n_n

theorem lhsIdx0 (p : S1000x1024.Idx) (q : dotT.contr.Idx) : (dotT.lhsIdx p q 0).val = (p 0).val := by
  unfold DotDims.lhsIdx
  rw [dif_neg (show ¬(0 : Fin S1000x512.rank) ∈ dotT.lhsBatch by decide),
    dif_pos (show (0 : Fin S1000x512.rank) ∈ dotT.lhsNonContracting by decide)]
  rfl

theorem lhsIdx1 (p : S1000x1024.Idx) (q : dotT.contr.Idx) : (dotT.lhsIdx p q 1).val = (q ⟨0, by decide⟩).val :=
  dotT.lhsIdx_val_of_single rfl p q

theorem rhsIdx0 (p : S1000x1024.Idx) (q : dotT.contr.Idx) : (dotT.rhsIdx p q 0).val = (p 1).val := by
  unfold DotDims.rhsIdx
  rw [dif_neg (show ¬(0 : Fin S1024x512.rank) ∈ dotT.rhsBatch by decide),
    dif_pos (show (0 : Fin S1024x512.rank) ∈ dotT.rhsNonContracting by decide)]
  rfl

theorem rhsIdx1 (p : S1000x1024.Idx) (q : dotT.contr.Idx) : (dotT.rhsIdx p q 1).val = (q ⟨0, by decide⟩).val :=
  dotT.rhsIdx_val_of_single rfl p q

/-- The logit of class `j` for the block's sample `r`: `∑_k wt (j, k) * x (r, k) + bc (j, 0)`. -/
theorem logitsT_apply (xb : FVec Ideal S1024x512 .bf16) (wt : Vec Ideal S1000x512 .f32) (bc : Vec Ideal S1000x1 .f32)
    (j : Fin 1000) (r : Fin 1024) :
    logitsT xb wt bc (ix2 j r) = (∑ k : Fin 512, wt (ix2 j k) * xb (ix2 r k)) + bc (ix2 j (0 : Fin 1)) := by
  have hb : broadcastTo S1000x1024 (shapeCast S1000x1 bc shapeCasts_S1000x1_S1000x1) broadcasts_S1000x1_S1000x1024 (ix2 j r)
      = bc (ix2 j (0 : Fin 1)) :=
    (broadcastTo_a1_ab_apply _ _ j r).trans (congrFun (shapeCast_self bc _) _)
  have hm : matmul dotT none (truncf .bf16 (shapeCast S1000x512 wt shapeCasts_S1000x512_S1000x512) bitsLt_bf16_f32) xb
      (constant S1000x1024 .f32 0x00000000#32) (ix2 j r) = ∑ k : Fin 512, wt (ix2 j k) * xb (ix2 r k) := by
    refine (Ideal.matmul_constant_zero_apply dotT none _ xb (ix2 j r)).trans ?_
    rw [← Equiv.sum_comp (contrEquiv1 dotT 512 rfl rfl).symm]
    refine Finset.sum_congr rfl fun k _ => ?_
    have hk := contrEquiv1_symm_val dotT 512 rfl rfl k
    have el : dotT.lhsIdx (ix2 j r) ((contrEquiv1 dotT 512 rfl rfl).symm k) = ix2 j k := funext fun a => Fin.ext (by
      match a with
      | ⟨0, _⟩ => exact lhsIdx0 _ _
      | ⟨1, _⟩ => exact (lhsIdx1 _ _).trans hk)
    have er : dotT.rhsIdx (ix2 j r) ((contrEquiv1 dotT 512 rfl rfl).symm k) = ix2 r k := funext fun a => Fin.ext (by
      match a with
      | ⟨0, _⟩ => exact rhsIdx0 _ _
      | ⟨1, _⟩ => exact (rhsIdx1 _ _).trans hk)
    rw [el, er]
    exact congrArg (· * xb (ix2 r k)) (congrFun (shapeCast_self wt _) _)
  exact congrArg₂ (· + ·) hm hb

end Cert.Block

end
-- ==== Proof.KernelValue.lean ====
/-
  The kernel's three result arrays as functions of its argument arrays.

  The region writes, for each head, a [1000, 16384] array (classes by samples) block by block: grid point `t` owns the
  samples `1024 t … 1024 t + 1023` and writes the block of columns with those numbers. Entry `(j, i)` of the array is
  the reciprocal-form softmax, at class `j`, of sample `i`'s logits `∑_k WT (j', k) * X (i, k) + BC (j', 0)`, where
  `X` is the feature array, `WT` the head's weights transposed and `BC` its bias as a column — the arrays the region
  finds, written by the host lines before it (a transpose and a reshape per head). The host lines after the region
  transpose each result back to samples by classes.
-/
import proofs.«130654_g8564164788422_cont_9to1_m_151_19_alg».proof.Proof.Gen.KernelIdeal.Frame
import proofs.«130654_g8564164788422_cont_9to1_m_151_19_alg».proof.Proof.Block
import Idealize.ShloMosaic.Lib.Pipeline.Value
import Idealize.ShloMosaic.Lib.ValueLayout
import Idealize.ShloMosaic.Lib.StableHlo.Run

set_option maxRecDepth 16384

noncomputable section

namespace Cert.KernelValue

open Idealize.ShloMosaic Idealize.ShloMosaic.TcCoe Idealize.ShloMosaic.ValueIdx Idealize.SL.Sem
open Cert.KernelIdeal Cert.KernelIdeal.Gen Cert.Softmax Cert.Block
open Idealize.ShloMosaic.Pipeline (Dat Cfg Window)

/-! ## One point, over plain variables -/

/-- A head's result in the layout the region writes: classes by samples. -/
def outT (X : S16384x512.Idx → EReal) (WT : S1000x512.Idx → EReal) (BC : S1000x1.Idx → EReal) : S1000x16384.Idx → EReal :=
  fun p => rowSoftmaxRecip
    (fun jj : Fin 1000 => (∑ k : Fin 512, WT (ix2 jj k) * X (ix2 (p 1) k)) + BC (ix2 jj (0 : Fin 1))) (p 0)

/-- If the point's sample block is rows `i'` of the features where the block's row `r` is concerned, and its weight and
    bias blocks are the whole arrays, then what the point computes at class `j` and its sample `r` is entry `(j, i')`. -/
theorem point_eq (X : S16384x512.Idx → EReal) (WT : S1000x512.Idx → EReal) (BC : S1000x1.Idx → EReal)
    (xb : Vec Ideal S1024x512 .f32) (wt : Vec Ideal S1000x512 .f32) (bc : Vec Ideal S1000x1 .f32)
    (j : Fin 1000) (r : Fin 1024) (i' : Fin 16384)
    (hx : ∀ k : Fin 512, xb (ix2 r k) = X (ix2 i' k))
    (hw : ∀ (jj : Fin 1000) (k : Fin 512), wt (ix2 jj k) = WT (ix2 jj k))
    (hb : ∀ jj : Fin 1000, bc (ix2 jj (0 : Fin 1)) = BC (ix2 jj (0 : Fin 1))) :
    softT (logitsT (k0_pay3 xb) wt bc) (ix2 j r) = outT X WT BC (ix2 j i') := by
  rw [softT_apply]
  show _ = rowSoftmaxRecip
    (fun jj : Fin 1000 => (∑ k : Fin 512, WT (ix2 jj k) * X (ix2 i' k)) + BC (ix2 jj (0 : Fin 1))) j
  refine rowSoftmaxRecip_congr (fun jj => ?_) j
  rw [logitsT_apply]
  refine congrArg₂ (· + ·) (Finset.sum_congr rfl fun k _ => ?_) (hb jj)
  rw [hw jj k]
  exact congrArg (WT (ix2 jj k) * ·) ((pay3_apply xb _).trans (hx k))

/-! ## From the region's layout to the specification -/

/-- With the weights transposed and the bias as a column, and every entry a real number, entry `(j, i)` of a head's
    array in the region's layout is entry `(i, j)` of the specification's softmax: the products commute, and on real
    logits the reciprocal form is the quotient form. -/
theorem outT_eq_softmax (X : S16384x512.Idx → EReal) (W : S512x1000.Idx → EReal) (B : S1000.Idx → EReal)
    (WT : S1000x512.Idx → EReal) (BC : S1000x1.Idx → EReal)
    (hWT : ∀ (j : Fin 1000) (k : Fin 512), WT (ix2 j k) = W (ix2 k j))
    (hBC : ∀ j : Fin 1000, BC (ix2 j (0 : Fin 1)) = B (ix1 j))
    (hX : ∀ p, IsReal (X p)) (hW : ∀ p, IsReal (W p)) (hB : ∀ p, IsReal (B p)) (i : Fin 16384) (j : Fin 1000) :
    outT X WT BC (ix2 j i) = softmax X W B (ix2 i j) := by
  show rowSoftmaxRecip
      (fun jj : Fin 1000 => (∑ k : Fin 512, WT (ix2 jj k) * X (ix2 i k)) + BC (ix2 jj (0 : Fin 1))) j
    = rowSoftmax (logit X W B i) j
  rw [← rowSoftmaxRecip_eq (logit X W B i) (fun jj => logit_isReal X W B hX hW hB i jj) j]
  refine rowSoftmaxRecip_congr (fun jj => ?_) j
  unfold logit
  refine congrArg₂ (· + ·) (Finset.sum_congr rfl fun k _ => ?_) (hBC jj)
  rw [hWT jj k, mul_comm]

/-! ## The index maps over the grid -/

variable (m : (ℓ : Loc nD τ sig) → Buf (Elt Ideal) ℓ)

theorem hz : (![0, 0] : Fin 2 → Nat) = fun _ => 0 := funext fun a => by fin_cases a <;> rfl

/-- The printed index maps, decided over the sixteen points: the feature window's block row is the output windows'
    block column, every other block index is zero, and the block column stays below sixteen. -/
theorem idx_facts : ∀ t : Fin cfg0.N,
    win0_0.index t (0 : Fin 2) = win0_7.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) ≤ 15
    ∧ win0_8.index t (0 : Fin 2) = 0 ∧ win0_8.index t (1 : Fin 2) = win0_7.index t (1 : Fin 2)
    ∧ win0_9.index t (0 : Fin 2) = 0 ∧ win0_9.index t (1 : Fin 2) = win0_7.index t (1 : Fin 2) :=
  (by decide +kernel : ∀ t : Fin grid0.N, _)

/-- Every block column is some point's. -/
theorem idx_onto : ∀ q : Fin 16, ∃ t : Fin cfg0.N, win0_7.index t (1 : Fin 2) = q.val :=
  (by decide +kernel : ∀ q : Fin 16, ∃ t : Fin grid0.N, win0_7.index t (1 : Fin 2) = q.val)

/-! ## The input blocks of a point -/

/-- Row `r` of the point's feature block is row `1024 * (block column) + r` of the features. -/
theorem x_block (c : Dev nD) (t : Fin cfg0.N) (r : Fin 1024) (k : Fin 512) (i' : Fin 16384)
    (hi : i'.val = win0_7.index t (1 : Fin 2) * 1024 + r.val) :
    iblk m c 0 t (ix2 r k) = V m c main_arg0 (ix2 i' k) := by
  obtain ⟨e0, e1, -⟩ := idx_facts t
  show V m c main_arg0 (((cfg0.win 0).blk t).view.emb (ix2 r k)) = V m c main_arg0 (ix2 i' k)
  have h : ((cfg0.win 0).blk t).view.emb (ix2 r k) = ix2 i' k := by
    funext a; apply Fin.ext
    match a with
    | ⟨0, _⟩ => show win0_0.index t (0 : Fin 2) * 1024 + 1 * r.val = i'.val; omega
    | ⟨1, _⟩ => show win0_0.index t (1 : Fin 2) * 512 + 1 * k.val = k.val; omega
  rw [h]

/-- The point's block of window 1 is the whole transposed weight array. -/
theorem w_block1 (c : Dev nD) (t : Fin cfg0.N) (j : Fin 1000) (k : Fin 512) :
    iblk m c 1 t (ix2 j k) = V m c main_call0_v0 (ix2 j k) := by
  obtain ⟨e0, e1, e2, e3, e4, e5, e6, e7, e8, e9, e10, e11, e12, e13, e14, e15, e16, e17, e18, e19⟩ := idx_facts t
  show V m c main_call0_v0 (((cfg0.win 1).blk t).view.emb (ix2 j k)) = V m c main_call0_v0 (ix2 j k)
  have h : ((cfg0.win 1).blk t).view.emb (ix2 j k) = ix2 j k := by
    funext a; apply Fin.ext
    match a with
    | ⟨0, _⟩ => show win0_1.index t (0 : Fin 2) * 1000 + 1 * j.val = j.val; omega
    | ⟨1, _⟩ => show win0_1.index t (1 : Fin 2) * 512 + 1 * k.val = k.val; omega
  rw [h]

/-- The point's block of window 2 is the whole bias column. -/
theorem b_block2 (c : Dev nD) (t : Fin cfg0.N) (j : Fin 1000) :
    iblk m c 2 t (ix2 j (0 : Fin 1)) = V m c main_call0_v1 (ix2 j (0 : Fin 1)) := by
  obtain ⟨e0, e1, e2, e3, e4, e5, e6, e7, e8, e9, e10, e11, e12, e13, e14, e15, e16, e17, e18, e19⟩ := idx_facts t
  show V m c main_call0_v1 (((cfg0.win 2).blk t).view.emb (ix2 j (0 : Fin 1))) = V m c main_call0_v1 (ix2 j (0 : Fin 1))
  have h : ((cfg0.win 2).blk t).view.emb (ix2 j (0 : Fin 1)) = ix2 j (0 : Fin 1) := by
    funext a; apply Fin.ext
    match a with
    | ⟨0, _⟩ => show win0_2.index t (0 : Fin 2) * 1000 + 1 * j.val = j.val; omega
    | ⟨1, _⟩ => show win0_2.index t (1 : Fin 2) * 1 + 1 * 0 = 0; omega
  rw [h]

/-- The point's block of window 3 is the whole transposed weight array. -/
theorem w_block3 (c : Dev nD) (t : Fin cfg0.N) (j : Fin 1000) (k : Fin 512) :
    iblk m c 3 t (ix2 j k) = V m c main_call0_v2 (ix2 j k) := by
  obtain ⟨e0, e1, e2, e3, e4, e5, e6, e7, e8, e9, e10, e11, e12, e13, e14, e15, e16, e17, e18, e19⟩ := idx_facts t
  show V m c main_call0_v2 (((cfg0.win 3).blk t).view.emb (ix2 j k)) = V m c main_call0_v2 (ix2 j k)
  have h : ((cfg0.win 3).blk t).view.emb (ix2 j k) = ix2 j k := by
    funext a; apply Fin.ext
    match a with
    | ⟨0, _⟩ => show win0_3.index t (0 : Fin 2) * 1000 + 1 * j.val = j.val; omega
    | ⟨1, _⟩ => show win0_3.index t (1 : Fin 2) * 512 + 1 * k.val = k.val; omega
  rw [h]

/-- The point's block of window 4 is the whole bias column. -/
theorem b_block4 (c : Dev nD) (t : Fin cfg0.N) (j : Fin 1000) :
    iblk m c 4 t (ix2 j (0 : Fin 1)) = V m c main_call0_v3 (ix2 j (0 : Fin 1)) := by
  obtain ⟨e0, e1, e2, e3, e4, e5, e6, e7, e8, e9, e10, e11, e12, e13, e14, e15, e16, e17, e18, e19⟩ := idx_facts t
  show V m c main_call0_v3 (((cfg0.win 4).blk t).view.emb (ix2 j (0 : Fin 1))) = V m c main_call0_v3 (ix2 j (0 : Fin 1))
  have h : ((cfg0.win 4).blk t).view.emb (ix2 j (0 : Fin 1)) = ix2 j (0 : Fin 1) := by
    funext a; apply Fin.ext
    match a with
    | ⟨0, _⟩ => show win0_4.index t (0 : Fin 2) * 1000 + 1 * j.val = j.val; omega
    | ⟨1, _⟩ => show win0_4.index t (1 : Fin 2) * 1 + 1 * 0 = 0; omega
  rw [h]

/-- The point's block of window 5 is the whole transposed weight array. -/
theorem w_block5 (c : Dev nD) (t : Fin cfg0.N) (j : Fin 1000) (k : Fin 512) :
    iblk m c 5 t (ix2 j k) = V m c main_call0_v4 (ix2 j k) := by
  obtain ⟨e0, e1, e2, e3, e4, e5, e6, e7, e8, e9, e10, e11, e12, e13, e14, e15, e16, e17, e18, e19⟩ := idx_facts t
  show V m c main_call0_v4 (((cfg0.win 5).blk t).view.emb (ix2 j k)) = V m c main_call0_v4 (ix2 j k)
  have h : ((cfg0.win 5).blk t).view.emb (ix2 j k) = ix2 j k := by
    funext a; apply Fin.ext
    match a with
    | ⟨0, _⟩ => show win0_5.index t (0 : Fin 2) * 1000 + 1 * j.val = j.val; omega
    | ⟨1, _⟩ => show win0_5.index t (1 : Fin 2) * 512 + 1 * k.val = k.val; omega
  rw [h]

/-- The point's block of window 6 is the whole bias column. -/
theorem b_block6 (c : Dev nD) (t : Fin cfg0.N) (j : Fin 1000) :
    iblk m c 6 t (ix2 j (0 : Fin 1)) = V m c main_call0_v5 (ix2 j (0 : Fin 1)) := by
  obtain ⟨e0, e1, e2, e3, e4, e5, e6, e7, e8, e9, e10, e11, e12, e13, e14, e15, e16, e17, e18, e19⟩ := idx_facts t
  show V m c main_call0_v5 (((cfg0.win 6).blk t).view.emb (ix2 j (0 : Fin 1))) = V m c main_call0_v5 (ix2 j (0 : Fin 1))
  have h : ((cfg0.win 6).blk t).view.emb (ix2 j (0 : Fin 1)) = ix2 j (0 : Fin 1) := by
    funext a; apply Fin.ext
    match a with
    | ⟨0, _⟩ => show win0_6.index t (0 : Fin 2) * 1000 + 1 * j.val = j.val; omega
    | ⟨1, _⟩ => show win0_6.index t (1 : Fin 2) * 1 + 1 * 0 = 0; omega
  rw [h]

/-! ## Head 0: output window 7 -/

/-- Head 0's array in the region's layout, of the arrays the region finds. -/
def G7 (c : Dev nD) : S1000x16384.Idx → EReal := outT (V m c main_arg0) (V m c main_call0_v0) (V m c main_call0_v1)

/-- What a point computes for head 0, at an index of its block, is the array's entry there. -/
theorem point7 (c : Dev nD) (t : Fin cfg0.N) (y : S1000x1024.Idx) :
    softT (logitsT (k0_pay3 (iblk m c 0 t)) (iblk m c 1 t) (iblk m c 2 t)) y
      = G7 m c (((cfg0.win 7).blk t).view.emb y) := by
  obtain ⟨j, r, rfl⟩ : ∃ (j : Fin 1000) (r : Fin 1024), y = ix2 j r := ⟨y 0, y 1, eq_ix2 y⟩
  obtain ⟨e0, e1, e2, e3, e4, e5, e6, e7, e8, e9, e10, e11, e12, e13, e14, e15, e16, e17, e18, e19⟩ := idx_facts t
  have hr : r.val < 1024 := r.isLt
  have hi : ((cfg0.win 7).blk t).view.emb (ix2 j r)
      = ix2 j (⟨win0_7.index t (1 : Fin 2) * 1024 + r.val, by omega⟩ : Fin 16384) := by
    funext a; apply Fin.ext
    match a with
    | ⟨0, _⟩ => show win0_7.index t (0 : Fin 2) * 1000 + 1 * j.val = j.val; omega
    | ⟨1, _⟩ => show win0_7.index t (1 : Fin 2) * 1024 + 1 * r.val = win0_7.index t (1 : Fin 2) * 1024 + r.val; omega
  rw [hi]
  exact point_eq (V m c main_arg0) (V m c main_call0_v0) (V m c main_call0_v1) (iblk m c 0 t) (iblk m c 1 t) (iblk m c 2 t) j r
    ⟨win0_7.index t (1 : Fin 2) * 1024 + r.val, by omega⟩ (fun k => x_block m c t r k _ rfl)
    (fun jj k => w_block1 m c t jj k) (fun jj => b_block2 m c t jj)

/-- WHAT POINT `t` WRITES BACK for head 0 is block `t` of the head's array. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz]
  simp only [View.ld_unit_zero (S := S1024x512) hz, View.ld_unit_zero (S := S1000x512) hz,
    View.ld_unit_zero (S := S1000x1) hz]
  rw [pay4_eq]
  funext y
  exact point7 m c t y

/-- An index of the array is in point `t`'s block iff each coordinate is in the block's range on its axis. -/
theorem mem_blk7 (t : Fin cfg0.N) (i : S1000x16384.Idx) :
    i ∈ ((cfg0.win 7).blk t).view.set ↔ ∀ a : Fin 2, win0_7.index t a * S1000x1024.size a ≤ (i a).val
      ∧ (i a).val < win0_7.index t a * S1000x1024.size a + S1000x1024.size a := by
  show i ∈ ((View.whole main_call0_v6_0).slice (win0_7.rect t)).set ↔ _
  rw [View.set_slice_whole, Rect.mem_set_unit]
  exact Iff.rfl

/-- Every index is in some point's block: column `i` belongs to the point whose block column is `i / 1024`. -/
theorem cover7 (i : S1000x16384.Idx) :
    ∃ t : Fin cfg0.N, (cfg0.win 7).flush t = true ∧ i ∈ ((cfg0.win 7).blk t).view.set := by
  have hi0 : (i 0).val < 1000 := (i 0).isLt
  have hi1 : (i 1).val < 16384 := (i 1).isLt
  obtain ⟨t, ht⟩ := idx_onto ⟨(i 1).val / 1024, by omega⟩
  have q1 : win0_7.index t (1 : Fin 2) = (i 1).val / 1024 := ht
  obtain ⟨e0, e1, e2, e3, e4, e5, e6, e7, e8, e9, e10, e11, e12, e13, e14, e15, e16, e17, e18, e19⟩ := idx_facts t
  refine ⟨t, flush0_7 t, ?_⟩
  rw [mem_blk7]
  intro a
  match a with
  | ⟨0, _⟩ =>
    show win0_7.index t (0 : Fin 2) * 1000 ≤ (i 0).val ∧ (i 0).val < win0_7.index t (0 : Fin 2) * 1000 + 1000
    omega
  | ⟨1, _⟩ =>
    show win0_7.index t (1 : Fin 2) * 1024 ≤ (i 1).val ∧ (i 1).val < win0_7.index t (1 : Fin 2) * 1024 + 1024
    omega

/-- THE ARRAY after the region: head 0's function of the arrays the region finds. -/
theorem final7 (c : Dev nD) : (dats m 0 c).arrAt 7 cfg0.N = G7 m c :=
  (dats m 0 c).arrAt_eq_of_cover 7 (G7 m c) (fun t _ => flushed7_eq m c t) cover7

/-! ## Head 1: output window 8 -/

/-- Head 1's array in the region's layout, of the arrays the region finds. -/
def G8 (c : Dev nD) : S1000x16384.Idx → EReal := outT (V m c main_arg0) (V m c main_call0_v2) (V m c main_call0_v3)

/-- What a point computes for head 1, at an index of its block, is the array's entry there. -/
theorem point8 (c : Dev nD) (t : Fin cfg0.N) (y : S1000x1024.Idx) :
    softT (logitsT (k0_pay3 (iblk m c 0 t)) (iblk m c 3 t) (iblk m c 4 t)) y
      = G8 m c (((cfg0.win 8).blk t).view.emb y) := by
  obtain ⟨j, r, rfl⟩ : ∃ (j : Fin 1000) (r : Fin 1024), y = ix2 j r := ⟨y 0, y 1, eq_ix2 y⟩
  obtain ⟨e0, e1, e2, e3, e4, e5, e6, e7, e8, e9, e10, e11, e12, e13, e14, e15, e16, e17, e18, e19⟩ := idx_facts t
  have hr : r.val < 1024 := r.isLt
  have hi : ((cfg0.win 8).blk t).view.emb (ix2 j r)
      = ix2 j (⟨win0_7.index t (1 : Fin 2) * 1024 + r.val, by omega⟩ : Fin 16384) := by
    funext a; apply Fin.ext
    match a with
    | ⟨0, _⟩ => show win0_8.index t (0 : Fin 2) * 1000 + 1 * j.val = j.val; omega
    | ⟨1, _⟩ => show win0_8.index t (1 : Fin 2) * 1024 + 1 * r.val = win0_7.index t (1 : Fin 2) * 1024 + r.val; omega
  rw [hi]
  exact point_eq (V m c main_arg0) (V m c main_call0_v2) (V m c main_call0_v3) (iblk m c 0 t) (iblk m c 3 t) (iblk m c 4 t) j r
    ⟨win0_7.index t (1 : Fin 2) * 1024 + r.val, by omega⟩ (fun k => x_block m c t r k _ rfl)
    (fun jj k => w_block3 m c t jj k) (fun jj => b_block4 m c t jj)

/-- WHAT POINT `t` WRITES BACK for head 1 is block `t` of the head's array. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  simp only [View.ld_unit_zero (S := S1024x512) hz, View.ld_unit_zero (S := S1000x512) hz,
    View.ld_unit_zero (S := S1000x1) hz]
  rw [pay1_eq]
  funext y
  exact point8 m c t y

/-- An index of the array is in point `t`'s block iff each coordinate is in the block's range on its axis. -/
theorem mem_blk8 (t : Fin cfg0.N) (i : S1000x16384.Idx) :
    i ∈ ((cfg0.win 8).blk t).view.set ↔ ∀ a : Fin 2, win0_8.index t a * S1000x1024.size a ≤ (i a).val
      ∧ (i a).val < win0_8.index t a * S1000x1024.size a + S1000x1024.size a := by
  show i ∈ ((View.whole main_call0_v6_1).slice (win0_8.rect t)).set ↔ _
  rw [View.set_slice_whole, Rect.mem_set_unit]
  exact Iff.rfl

/-- Every index is in some point's block: column `i` belongs to the point whose block column is `i / 1024`. -/
theorem cover8 (i : S1000x16384.Idx) :
    ∃ t : Fin cfg0.N, (cfg0.win 8).flush t = true ∧ i ∈ ((cfg0.win 8).blk t).view.set := by
  have hi0 : (i 0).val < 1000 := (i 0).isLt
  have hi1 : (i 1).val < 16384 := (i 1).isLt
  obtain ⟨t, ht⟩ := idx_onto ⟨(i 1).val / 1024, by omega⟩
  have q1 : win0_7.index t (1 : Fin 2) = (i 1).val / 1024 := ht
  obtain ⟨e0, e1, e2, e3, e4, e5, e6, e7, e8, e9, e10, e11, e12, e13, e14, e15, e16, e17, e18, e19⟩ := idx_facts t
  refine ⟨t, flush0_8 t, ?_⟩
  rw [mem_blk8]
  intro a
  match a with
  | ⟨0, _⟩ =>
    show win0_8.index t (0 : Fin 2) * 1000 ≤ (i 0).val ∧ (i 0).val < win0_8.index t (0 : Fin 2) * 1000 + 1000
    omega
  | ⟨1, _⟩ =>
    show win0_8.index t (1 : Fin 2) * 1024 ≤ (i 1).val ∧ (i 1).val < win0_8.index t (1 : Fin 2) * 1024 + 1024
    omega

/-- THE ARRAY after the region: head 1's function of the arrays the region finds. -/
theorem final8 (c : Dev nD) : (dats m 0 c).arrAt 8 cfg0.N = G8 m c :=
  (dats m 0 c).arrAt_eq_of_cover 8 (G8 m c) (fun t _ => flushed8_eq m c t) cover8

/-! ## Head 2: output window 9 -/

/-- Head 2's array in the region's layout, of the arrays the region finds. -/
def G9 (c : Dev nD) : S1000x16384.Idx → EReal := outT (V m c main_arg0) (V m c main_call0_v4) (V m c main_call0_v5)

/-- What a point computes for head 2, at an index of its block, is the array's entry there. -/
theorem point9 (c : Dev nD) (t : Fin cfg0.N) (y : S1000x1024.Idx) :
    softT (logitsT (k0_pay3 (iblk m c 0 t)) (iblk m c 5 t) (iblk m c 6 t)) y
      = G9 m c (((cfg0.win 9).blk t).view.emb y) := by
  obtain ⟨j, r, rfl⟩ : ∃ (j : Fin 1000) (r : Fin 1024), y = ix2 j r := ⟨y 0, y 1, eq_ix2 y⟩
  obtain ⟨e0, e1, e2, e3, e4, e5, e6, e7, e8, e9, e10, e11, e12, e13, e14, e15, e16, e17, e18, e19⟩ := idx_facts t
  have hr : r.val < 1024 := r.isLt
  have hi : ((cfg0.win 9).blk t).view.emb (ix2 j r)
      = ix2 j (⟨win0_7.index t (1 : Fin 2) * 1024 + r.val, by omega⟩ : Fin 16384) := by
    funext a; apply Fin.ext
    match a with
    | ⟨0, _⟩ => show win0_9.index t (0 : Fin 2) * 1000 + 1 * j.val = j.val; omega
    | ⟨1, _⟩ => show win0_9.index t (1 : Fin 2) * 1024 + 1 * r.val = win0_7.index t (1 : Fin 2) * 1024 + r.val; omega
  rw [hi]
  exact point_eq (V m c main_arg0) (V m c main_call0_v4) (V m c main_call0_v5) (iblk m c 0 t) (iblk m c 5 t) (iblk m c 6 t) j r
    ⟨win0_7.index t (1 : Fin 2) * 1024 + r.val, by omega⟩ (fun k => x_block m c t r k _ rfl)
    (fun jj k => w_block5 m c t jj k) (fun jj => b_block6 m c t jj)

/-- WHAT POINT `t` WRITES BACK for head 2 is block `t` of the head's array. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S1024x512) hz, View.ld_unit_zero (S := S1000x512) hz,
    View.ld_unit_zero (S := S1000x1) hz]
  rw [pay2_eq]
  funext y
  exact point9 m c t y

/-- An index of the array is in point `t`'s block iff each coordinate is in the block's range on its axis. -/
theorem mem_blk9 (t : Fin cfg0.N) (i : S1000x16384.Idx) :
    i ∈ ((cfg0.win 9).blk t).view.set ↔ ∀ a : Fin 2, win0_9.index t a * S1000x1024.size a ≤ (i a).val
      ∧ (i a).val < win0_9.index t a * S1000x1024.size a + S1000x1024.size a := by
  show i ∈ ((View.whole main_call0_v6_2).slice (win0_9.rect t)).set ↔ _
  rw [View.set_slice_whole, Rect.mem_set_unit]
  exact Iff.rfl

/-- Every index is in some point's block: column `i` belongs to the point whose block column is `i / 1024`. -/
theorem cover9 (i : S1000x16384.Idx) :
    ∃ t : Fin cfg0.N, (cfg0.win 9).flush t = true ∧ i ∈ ((cfg0.win 9).blk t).view.set := by
  have hi0 : (i 0).val < 1000 := (i 0).isLt
  have hi1 : (i 1).val < 16384 := (i 1).isLt
  obtain ⟨t, ht⟩ := idx_onto ⟨(i 1).val / 1024, by omega⟩
  have q1 : win0_7.index t (1 : Fin 2) = (i 1).val / 1024 := ht
  obtain ⟨e0, e1, e2, e3, e4, e5, e6, e7, e8, e9, e10, e11, e12, e13, e14, e15, e16, e17, e18, e19⟩ := idx_facts t
  refine ⟨t, flush0_9 t, ?_⟩
  rw [mem_blk9]
  intro a
  match a with
  | ⟨0, _⟩ =>
    show win0_9.index t (0 : Fin 2) * 1000 ≤ (i 0).val ∧ (i 0).val < win0_9.index t (0 : Fin 2) * 1000 + 1000
    omega
  | ⟨1, _⟩ =>
    show win0_9.index t (1 : Fin 2) * 1024 ≤ (i 1).val ∧ (i 1).val < win0_9.index t (1 : Fin 2) * 1024 + 1024
    omega

/-- THE ARRAY after the region: head 2's function of the arrays the region finds. -/
theorem final9 (c : Dev nD) : (dats m 0 c).arrAt 9 cfg0.N = G9 m c :=
  (dats m 0 c).arrAt_eq_of_cover 9 (G9 m c) (fun t _ => flushed9_eq m c t) cover9

/-! ## The host lines before the region -/

/-- The region finds head 0's weights transposed: entry `(j, k)` is entry `(k, j)` of the argument. -/
theorem V_wt0 (c : Dev nD) (j : Fin 1000) (k : Fin 512) :
    V m c main_call0_v0 (ix2 j k) = m ((c : Thread nD τ).loc main_arg1) (ix2 k j) := by
  have e : (V m c main_call0_v0 : S1000x512.Idx → EReal)
      = transpose S1000x512 [1, 0] (m ((c : Thread nD τ).loc main_arg1)) transposes_S512x1000_S1000x512_1_0 := by
    show StableHlo.after hostOps0 (fun b => m (c, b)) (Proc.devRef .tc main_call0_v0) = _
    after_results
    rfl
  rw [e]
  exact transpose_ix2_apply _ _ j k

/-- The region finds head 0's bias as a column: entry `(j, 0)` is entry `j` of the argument. -/
theorem V_bc0 (c : Dev nD) (j : Fin 1000) :
    V m c main_call0_v1 (ix2 j (0 : Fin 1)) = m ((c : Thread nD τ).loc main_arg2) (ix1 j) := by
  have e : (V m c main_call0_v1 : S1000x1.Idx → EReal)
      = shapeCast S1000x1 (m ((c : Thread nD τ).loc main_arg2)) shapeCasts_S1000_S1000x1 := by
    show StableHlo.after hostOps0 (fun b => m (c, b)) (Proc.devRef .tc main_call0_v1) = _
    after_results
    rfl
  rw [e]
  exact Cert.Layout.shapeCast_a_a1_apply _ _ j 0

/-- The region finds head 1's weights transposed: entry `(j, k)` is entry `(k, j)` of the argument. -/
theorem V_wt1 (c : Dev nD) (j : Fin 1000) (k : Fin 512) :
    V m c main_call0_v2 (ix2 j k) = m ((c : Thread nD τ).loc main_arg3) (ix2 k j) := by
  have e : (V m c main_call0_v2 : S1000x512.Idx → EReal)
      = transpose S1000x512 [1, 0] (m ((c : Thread nD τ).loc main_arg3)) transposes_S512x1000_S1000x512_1_0 := by
    show StableHlo.after hostOps0 (fun b => m (c, b)) (Proc.devRef .tc main_call0_v2) = _
    after_results
    rfl
  rw [e]
  exact transpose_ix2_apply _ _ j k

/-- The region finds head 1's bias as a column: entry `(j, 0)` is entry `j` of the argument. -/
theorem V_bc1 (c : Dev nD) (j : Fin 1000) :
    V m c main_call0_v3 (ix2 j (0 : Fin 1)) = m ((c : Thread nD τ).loc main_arg4) (ix1 j) := by
  have e : (V m c main_call0_v3 : S1000x1.Idx → EReal)
      = shapeCast S1000x1 (m ((c : Thread nD τ).loc main_arg4)) shapeCasts_S1000_S1000x1 := by
    show StableHlo.after hostOps0 (fun b => m (c, b)) (Proc.devRef .tc main_call0_v3) = _
    after_results
    rfl
  rw [e]
  exact Cert.Layout.shapeCast_a_a1_apply _ _ j 0

/-- The region finds head 2's weights transposed: entry `(j, k)` is entry `(k, j)` of the argument. -/
theorem V_wt2 (c : Dev nD) (j : Fin 1000) (k : Fin 512) :
    V m c main_call0_v4 (ix2 j k) = m ((c : Thread nD τ).loc main_arg5) (ix2 k j) := by
  have e : (V m c main_call0_v4 : S1000x512.Idx → EReal)
      = transpose S1000x512 [1, 0] (m ((c : Thread nD τ).loc main_arg5)) transposes_S512x1000_S1000x512_1_0 := by
    show StableHlo.after hostOps0 (fun b => m (c, b)) (Proc.devRef .tc main_call0_v4) = _
    after_results
    rfl
  rw [e]
  exact transpose_ix2_apply _ _ j k

/-- The region finds head 2's bias as a column: entry `(j, 0)` is entry `j` of the argument. -/
theorem V_bc2 (c : Dev nD) (j : Fin 1000) :
    V m c main_call0_v5 (ix2 j (0 : Fin 1)) = m ((c : Thread nD τ).loc main_arg6) (ix1 j) := by
  have e : (V m c main_call0_v5 : S1000x1.Idx → EReal)
      = shapeCast S1000x1 (m ((c : Thread nD τ).loc main_arg6)) shapeCasts_S1000_S1000x1 := by
    show StableHlo.after hostOps0 (fun b => m (c, b)) (Proc.devRef .tc main_call0_v5) = _
    after_results
    rfl
  rw [e]
  exact Cert.Layout.shapeCast_a_a1_apply _ _ j 0

/-! ## The host lines after the region, and the results -/

/-- The host line after the region transposes head 0's array back: entry `(i, j)` of the result is entry `(j, i)`. -/
theorem tail0 (c : Dev nD) (i : Fin 16384) (j : Fin 1000) :
    Pipeline.afterTail₀ cfgs (dats m) 0 (V0 m) [hostOps1] c main_v0_0 (ix2 i j) = (dats m 0 c).arrAt 7 cfg0.N (ix2 j i) := by
  have e : (Pipeline.afterTail₀ cfgs (dats m) 0 (V0 m) [hostOps1] c main_v0_0 : S16384x1000.Idx → EReal)
      = transpose S16384x1000 [1, 0] ((dats m 0 c).arrAt 7 cfg0.N) transposes_S1000x16384_S16384x1000_1_0 := by
    unfold Pipeline.afterTail₀
    show StableHlo.after hostOps1 _ (Proc.devRef .tc main_v0_0) = _
    after_results
    show transpose S16384x1000 [1, 0] (Pipeline.withArrays spec0 c (V0 m c) (fun w => (dats m 0 c).arrAt w cfg0.N)
        (Proc.devRef .tc (Pipeline.arrRef spec0 7))) transposes_S1000x16384_S16384x1000_1_0 = _
    rw [Pipeline.withArrays_arr spec0 launch0.win.arr_inj c (V0 m c) (fun w => (dats m 0 c).arrAt w cfg0.N) 7]
  rw [e]
  exact transpose_ix2_apply _ _ i j

/-- The host line after the region transposes head 1's array back: entry `(i, j)` of the result is entry `(j, i)`. -/
theorem tail1 (c : Dev nD) (i : Fin 16384) (j : Fin 1000) :
    Pipeline.afterTail₀ cfgs (dats m) 0 (V0 m) [hostOps1] c main_v0_1 (ix2 i j) = (dats m 0 c).arrAt 8 cfg0.N (ix2 j i) := by
  have e : (Pipeline.afterTail₀ cfgs (dats m) 0 (V0 m) [hostOps1] c main_v0_1 : S16384x1000.Idx → EReal)
      = transpose S16384x1000 [1, 0] ((dats m 0 c).arrAt 8 cfg0.N) transposes_S1000x16384_S16384x1000_1_0 := by
    unfold Pipeline.afterTail₀
    show StableHlo.after hostOps1 _ (Proc.devRef .tc main_v0_1) = _
    after_results
    show transpose S16384x1000 [1, 0] (Pipeline.withArrays spec0 c (V0 m c) (fun w => (dats m 0 c).arrAt w cfg0.N)
        (Proc.devRef .tc (Pipeline.arrRef spec0 8))) transposes_S1000x16384_S16384x1000_1_0 = _
    rw [Pipeline.withArrays_arr spec0 launch0.win.arr_inj c (V0 m c) (fun w => (dats m 0 c).arrAt w cfg0.N) 8]
  rw [e]
  exact transpose_ix2_apply _ _ i j

/-- The host line after the region transposes head 2's array back: entry `(i, j)` of the result is entry `(j, i)`. -/
theorem tail2 (c : Dev nD) (i : Fin 16384) (j : Fin 1000) :
    Pipeline.afterTail₀ cfgs (dats m) 0 (V0 m) [hostOps1] c main_v0_2 (ix2 i j) = (dats m 0 c).arrAt 9 cfg0.N (ix2 j i) := by
  have e : (Pipeline.afterTail₀ cfgs (dats m) 0 (V0 m) [hostOps1] c main_v0_2 : S16384x1000.Idx → EReal)
      = transpose S16384x1000 [1, 0] ((dats m 0 c).arrAt 9 cfg0.N) transposes_S1000x16384_S16384x1000_1_0 := by
    unfold Pipeline.afterTail₀
    show StableHlo.after hostOps1 _ (Proc.devRef .tc main_v0_2) = _
    after_results
    show transpose S16384x1000 [1, 0] (Pipeline.withArrays spec0 c (V0 m c) (fun w => (dats m 0 c).arrAt w cfg0.N)
        (Proc.devRef .tc (Pipeline.arrRef spec0 9))) transposes_S1000x16384_S16384x1000_1_0 = _
    rw [Pipeline.withArrays_arr spec0 launch0.win.arr_inj c (V0 m c) (fun w => (dats m 0 c).arrAt w cfg0.N) 9]
  rw [e]
  exact transpose_ix2_apply _ _ i j

/-- HEAD 0'S RESULT is the specification's softmax of the features and the head's weights and bias, when every entry
    of those three arrays is a real number. -/
theorem result0 (c : Dev nD)
    (hX : ∀ p, IsReal (m ((c : Thread nD τ).loc main_arg0) p)) (hW : ∀ p, IsReal (m ((c : Thread nD τ).loc main_arg1) p))
    (hB : ∀ p, IsReal (m ((c : Thread nD τ).loc main_arg2) p)) :
    Pipeline.afterTail₀ cfgs (dats m) 0 (V0 m) [hostOps1] c main_v0_0
      = softmax (m ((c : Thread nD τ).loc main_arg0)) (m ((c : Thread nD τ).loc main_arg1)) (m ((c : Thread nD τ).loc main_arg2)) := by
  funext p
  obtain ⟨i, j, rfl⟩ : ∃ (i : Fin 16384) (j : Fin 1000), p = ix2 i j := ⟨p 0, p 1, eq_ix2 p⟩
  rw [tail0, final7]
  unfold G7
  rw [V_main_arg0]
  exact outT_eq_softmax _ _ _ _ _ (fun j k => V_wt0 m c j k) (fun j => V_bc0 m c j) hX hW hB i j

/-- HEAD 1'S RESULT is the specification's softmax of the features and the head's weights and bias, when every entry
    of those three arrays is a real number. -/
theorem result1 (c : Dev nD)
    (hX : ∀ p, IsReal (m ((c : Thread nD τ).loc main_arg0) p)) (hW : ∀ p, IsReal (m ((c : Thread nD τ).loc main_arg3) p))
    (hB : ∀ p, IsReal (m ((c : Thread nD τ).loc main_arg4) p)) :
    Pipeline.afterTail₀ cfgs (dats m) 0 (V0 m) [hostOps1] c main_v0_1
      = softmax (m ((c : Thread nD τ).loc main_arg0)) (m ((c : Thread nD τ).loc main_arg3)) (m ((c : Thread nD τ).loc main_arg4)) := by
  funext p
  obtain ⟨i, j, rfl⟩ : ∃ (i : Fin 16384) (j : Fin 1000), p = ix2 i j := ⟨p 0, p 1, eq_ix2 p⟩
  rw [tail1, final8]
  unfold G8
  rw [V_main_arg0]
  exact outT_eq_softmax _ _ _ _ _ (fun j k => V_wt1 m c j k) (fun j => V_bc1 m c j) hX hW hB i j

/-- HEAD 2'S RESULT is the specification's softmax of the features and the head's weights and bias, when every entry
    of those three arrays is a real number. -/
theorem result2 (c : Dev nD)
    (hX : ∀ p, IsReal (m ((c : Thread nD τ).loc main_arg0) p)) (hW : ∀ p, IsReal (m ((c : Thread nD τ).loc main_arg5) p))
    (hB : ∀ p, IsReal (m ((c : Thread nD τ).loc main_arg6) p)) :
    Pipeline.afterTail₀ cfgs (dats m) 0 (V0 m) [hostOps1] c main_v0_2
      = softmax (m ((c : Thread nD τ).loc main_arg0)) (m ((c : Thread nD τ).loc main_arg5)) (m ((c : Thread nD τ).loc main_arg6)) := by
  funext p
  obtain ⟨i, j, rfl⟩ : ∃ (i : Fin 16384) (j : Fin 1000), p = ix2 i j := ⟨p 0, p 1, eq_ix2 p⟩
  rw [tail2, final9]
  unfold G9
  rw [V_main_arg0]
  exact outT_eq_softmax _ _ _ _ _ (fun j k => V_wt2 m c j k) (fun j => V_bc2 m c j) hX hW hB i j

/-! ## The run -/

/-- Under real argument arrays every weakly fair execution of the kernel's program ends with each head's result at
    the specification's softmax of the features and that head's weights and bias, and with the arguments unchanged. -/
theorem run (ρ : Dev nD → PrngReg)
    (hreal : ∀ c : Dev nD, (∀ p, IsReal (m ((c.tc : Thread nD τ).loc main_arg0) p)) ∧ (∀ p, IsReal (m ((c.tc : Thread nD τ).loc main_arg1) p))
      ∧ (∀ p, IsReal (m ((c.tc : Thread nD τ).loc main_arg2) p)) ∧ (∀ p, IsReal (m ((c.tc : Thread nD τ).loc main_arg3) p))
      ∧ (∀ p, IsReal (m ((c.tc : Thread nD τ).loc main_arg4) p)) ∧ (∀ p, IsReal (m ((c.tc : Thread nD τ).loc main_arg5) p))
      ∧ (∀ p, IsReal (m ((c.tc : Thread nD τ).loc main_arg6) p))) :
    θ_run defs (onTc (τ := τ) (main (F := Ideal))) ⟨m, fun _ => 0, ρ⟩ (fun r => ∀ c : Dev nD,
      r.2.mem ((c.tc : Thread nD τ).loc main_v0_0) = softmax (m ((c.tc : Thread nD τ).loc main_arg0)) (m ((c.tc : Thread nD τ).loc main_arg1)) (m ((c.tc : Thread nD τ).loc main_arg2))
      ∧ r.2.mem ((c.tc : Thread nD τ).loc main_v0_1) = softmax (m ((c.tc : Thread nD τ).loc main_arg0)) (m ((c.tc : Thread nD τ).loc main_arg3)) (m ((c.tc : Thread nD τ).loc main_arg4))
      ∧ r.2.mem ((c.tc : Thread nD τ).loc main_v0_2) = softmax (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0_0 (Pipeline.mem_restRefs_of main_v0_0 (by decide) (by decide))).trans
        (result0 m c (hreal c).1 (hreal c).2.1 (hreal c).2.2.1),
      ((h c).2 main_v0_1 (Pipeline.mem_restRefs_of main_v0_1 (by decide) (by decide))).trans
        (result1 m c (hreal c).1 (hreal c).2.2.2.1 (hreal c).2.2.2.2.1),
      ((h c).2 main_v0_2 (Pipeline.mem_restRefs_of main_v0_2 (by decide) (by decide))).trans
        (result2 m c (hreal c).1 (hreal c).2.2.2.2.2.1 (hreal c).2.2.2.2.2.2),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelValue

end
-- ==== Proof.lean ====
/-
  Three linear classifier heads with a softmax, computed by one kernel over blocks of 1024 samples, against the plain
  reference: both programs, read over the extended reals, compute for each head `h` and each sample `i` the softmax over
  the 1000 classes of the logits `∑_k x i k * w_h k j + b_h j`.

  The kernel works in the transposed layout (classes by samples, the host transposing the weights before and the
  results after), multiplies `w_h^T` by `x^T`, and normalises by multiplying with the reciprocal of the row's sum of
  exponentials where the reference divides by that sum. The products commute term by term; the two normalisations are
  one function off a vanishing sum (both are `e * S⁻¹`), and the sum does not vanish because the precondition makes every
  input a real number: the logits are then real, the row maximum is below `+∞`, every exponential is positive.

  The frames are the generated ones (the reference's is its run with the results dropped); the idealized kernel is the
  kernel's own text read over the extended reals, no operation rewritten, so the idealization claim is trivial; the value claim joins the kernel's run (Proof/KernelValue.lean, over the block's
  value in Proof/Block.lean) and the reference's run read stage by stage (Proof/RefValue.lean) at the specification
  (Proof/Softmax.lean), with the inputs' realness from the precondition (Proof/FiniteArgs.lean).
-/
import proofs.«130654_g8564164788422_cont_9to1_m_151_19_alg».proof.Defs
import proofs.«130654_g8564164788422_cont_9to1_m_151_19_alg».proof.Proof.Gen.Kernel
import proofs.«130654_g8564164788422_cont_9to1_m_151_19_alg».proof.Proof.Gen.Kernel.Skeleton
import proofs.«130654_g8564164788422_cont_9to1_m_151_19_alg».proof.Proof.Gen.Kernel.Launch
import proofs.«130654_g8564164788422_cont_9to1_m_151_19_alg».proof.Proof.Gen.Kernel.Points
import proofs.«130654_g8564164788422_cont_9to1_m_151_19_alg».proof.Proof.Gen.Kernel.Frame
import proofs.«130654_g8564164788422_cont_9to1_m_151_19_alg».proof.Proof.Gen.KernelIdeal
import proofs.«130654_g8564164788422_cont_9to1_m_151_19_alg».proof.Proof.Gen.KernelIdeal.Skeleton
import proofs.«130654_g8564164788422_cont_9to1_m_151_19_alg».proof.Proof.Gen.KernelIdeal.Launch
import proofs.«130654_g8564164788422_cont_9to1_m_151_19_alg».proof.Proof.Gen.KernelIdeal.Points
import proofs.«130654_g8564164788422_cont_9to1_m_151_19_alg».proof.Proof.Gen.KernelIdeal.Frame
import proofs.«130654_g8564164788422_cont_9to1_m_151_19_alg».proof.Proof.Gen.ReferenceIdeal
import proofs.«130654_g8564164788422_cont_9to1_m_151_19_alg».proof.Proof.Gen.Pre_finite_inputs
import proofs.«130654_g8564164788422_cont_9to1_m_151_19_alg».proof.Proof.Gen.ReferenceIdeal.Run
import proofs.«130654_g8564164788422_cont_9to1_m_151_19_alg».proof.Proof.Gen.ReferenceIdeal.Read
import proofs.«130654_g8564164788422_cont_9to1_m_151_19_alg».proof.Proof.Softmax
import proofs.«130654_g8564164788422_cont_9to1_m_151_19_alg».proof.Proof.FiniteArgs
import proofs.«130654_g8564164788422_cont_9to1_m_151_19_alg».proof.Proof.RefValue
import proofs.«130654_g8564164788422_cont_9to1_m_151_19_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No operation of the kernel was rewritten in its idealized text. -/
theorem preserves : Cert.preserves_Kernel_KernelIdeal := trivial

/-- Both programs end with each head's result at the specification's softmax of the features and that head's weights
    and bias: the kernel's by its run under the inputs' realness, the reference's by its run read stage by stage, the
    arguments identified by their agreement. -/
theorem algebraic : Cert.algebraic_KernelIdeal_ReferenceIdeal := by
  intro m ρ m' ρ' hpre hagree
  have hreal := fun c : Dev Cert.KernelIdeal.nD => Cert.FiniteArgs.real_of_pre _ _ _ _ _ _ _ (hpre c)
  refine ⟨fun c => Cert.Softmax.softmax (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Softmax.softmax (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Softmax.softmax (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelValue.run m ρ hreal, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨r0, r1, r2, k⟩ := h c
  refine ⟨?_, ?_, ?_, k⟩
  · rw [r0, Cert.ReferenceIdeal.Read.val_main_v14_eq, Cert.RefValue.head0, a0, a1, a2]
  · rw [r1, Cert.ReferenceIdeal.Read.val_main_v29_eq, Cert.RefValue.head1, a0, a3, a4]
  · rw [r2, Cert.ReferenceIdeal.Read.val_main_v44_eq, Cert.RefValue.head2, a0, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
